-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S1000000x64 : Shape := ⟨2, ![1000000, 64]⟩
abbrev S100000x64 : Shape := ⟨2, ![100000, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S256x128 .f32) (main_arg7 : FVec F S128 .f32) (main_arg8 : FVec F S128x1 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_v33

def fn {F : FTy → Type} [FloatOps F] (main_arg0 : IVec S65536 32) (main_arg1 : IVec S65536 32) (main_arg2 : FVec F S1000000x64 .f32) (main_arg3 : FVec F S100000x64 .f32) (main_arg4 : FVec F S64x256 .f32) (main_arg5 : FVec F S256 .f32) (main_arg6 : FVec F S256x128 .f32) (main_arg7 : FVec F S128 .f32) (main_arg8 : FVec F S128x1 .f32) (main_arg9 : FVec F S1 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x256 .f32 := Host.absf main_arg4
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S65536 : Shape := ⟨1, ![65536]⟩
abbrev S1000000x64 : Shape := ⟨2, ![1000000, 64]⟩
abbrev S100000x64 : Shape := ⟨2, ![100000, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S65536x1 : Shape := ⟨2, ![65536, 1]⟩
abbrev S65536x64 : Shape := ⟨2, ![65536, 64]⟩
abbrev S1x256 : Shape := ⟨2, ![1, 256]⟩
abbrev S1x128 : Shape := ⟨2, ![1, 128]⟩
abbrev S1x1 : Shape := ⟨2, ![1, 1]⟩
abbrev S4096x64 : Shape := ⟨2, ![4096, 64]⟩
abbrev S4096x1 : Shape := ⟨2, ![4096, 1]⟩
abbrev S4096x256 : Shape := ⟨2, ![4096, 256]⟩
abbrev S4096x128 : Shape := ⟨2, ![4096, 128]⟩
abbrev S4096 : Shape := ⟨1, ![4096]⟩

abbrev nBuf : Space → Nat
  | .hbm => 34
  | .vmem => 12
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S1000000x64, .f32⟩
  | .hbm, ⟨3, _⟩ => ⟨S100000x64, .f32⟩
  | .hbm, ⟨4, _⟩ => ⟨S64x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S_, .i32⟩
  | .hbm, ⟨11, _⟩ => ⟨S65536, .i32⟩
  | .hbm, ⟨12, _⟩ => ⟨S65536, .i1⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S65536, .i32⟩
  | .hbm, ⟨17, _⟩ => ⟨S65536x1, .i32⟩
  | .hbm, ⟨18, _⟩ => ⟨S65536x64, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536x64, .f32⟩
  | .hbm, ⟨28, _⟩ => ⟨S1x256, .f32⟩
  | .hbm, ⟨29, _⟩ => ⟨S1x128, .f32⟩
  | .hbm, ⟨30, _⟩ => ⟨S1x1, .f32⟩
  | .hbm, ⟨31, _⟩ => ⟨S1x128, .f32⟩
  | .hbm, ⟨32, _⟩ => ⟨S65536x1, .f32⟩
  | .hbm, ⟨33, _⟩ => ⟨S65536, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S1x128, .f32⟩
  | .local _ .vmem, ⟨9, _⟩ => ⟨S1x1, .f32⟩
  | .local _ .vmem, ⟨10, _⟩ => ⟨S4096x1, .f32⟩
  | .local _ .vmem, ⟨11, _⟩ => ⟨S4096x1, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  shapeCasts_S256_S1x256 : S256.ShapeCasts S1x256
  shapeCasts_S128_S1x128 : S128.ShapeCasts S1x128
  shapeCasts_S1_S1x1 : S1.ShapeCasts S1x1
  shapeCasts_S128x1_S1x128 : S128x1.ShapeCasts S1x128
  inb_S64x256_S64x256_0_0 : ∀ a, (![0, 0] : Fin 2 → Nat) a + S64x256.size a ≤ S64x256.size a
  h_S64x256 : 0 < S64x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S1x256_S4096x256 : S1x256.Broadcasts S4096x256
  broadcasts_S1x128_S4096x128 : S1x128.Broadcasts S4096x128
  reduces_S4096x128_S4096 : S4096x128.Reduces [1] S4096
  shapeCasts_S4096_S4096x1 : S4096.ShapeCasts S4096x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S65536x1_S65536 : S65536x1.ShapeCasts S65536
  gather_S1000000x64_S65536x1_S65536x64_1_0_n_n_0_1_164_wf : GatherDims.WF S1000000x64 S65536x1 S65536x64 [1] [0] [] [0] [] 1 ![1, 64]
  gather_S100000x64_S65536x1_S65536x64_1_0_n_n_0_1_164_wf : GatherDims.WF S100000x64 S65536x1 S65536x64 [1] [0] [] [0] [] 1 ![1, 64]
  dot_S4096x64_S64x256_S4096x256_1_0_0_1_n_n_wf : DotDims.WF S4096x64 S64x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S65536x64.size a
  hwx0_1 : ∀ i : grid0.Coords, EltTy.bits .f32 = 32 ∨ (Rect.block (s := S65536x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x1.size a ≤ S65536x1.size a
  hwx0_8 : ∀ i : grid0.Coords, EltTy.bits .f32 = 32 ∨ (Rect.block (s := S65536x1) S4096x1.size (cc0_transform_8 i) (hinb0_8 i)).WholeWords (EltTy.packing .f32)

variable [Facts₀]

def gather_S1000000x64_S65536x1_S65536x64_1_0_n_n_0_1_164 : GatherDims S1000000x64 S65536x1 S65536x64 where
  offsetDims := [1]
  collapsedSliceDims := [0]
  operandBatchingDims := []
  startIndicesBatchingDims := []
  startIndexMap := [0]
  indexVectorDim := 1
  sliceSizes := ![1, 64]
  wf := gather_S1000000x64_S65536x1_S65536x64_1_0_n_n_0_1_164_wf
def gather_S100000x64_S65536x1_S65536x64_1_0_n_n_0_1_164 : GatherDims S100000x64 S65536x1 S65536x64 where
  offsetDims := [1]
  collapsedSliceDims := [0]
  operandBatchingDims := []
  startIndicesBatchingDims := []
  startIndexMap := [0]
  indexVectorDim := 1
  sliceSizes := ![1, 64]
  wf := gather_S100000x64_S65536x1_S65536x64_1_0_n_n_0_1_164_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v6) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S4096x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536 : Shape := ⟨1, ![65536]⟩
abbrev S1000000x64 : Shape := ⟨2, ![1000000, 64]⟩
abbrev S100000x64 : Shape := ⟨2, ![100000, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S65536x1 : Shape := ⟨2, ![65536, 1]⟩
abbrev S65536x64 : Shape := ⟨2, ![65536, 64]⟩
abbrev S131072x64 : Shape := ⟨2, ![131072, 64]⟩
abbrev S131072x256 : Shape := ⟨2, ![131072, 256]⟩
abbrev S1x256 : Shape := ⟨2, ![1, 256]⟩
abbrev S131072x128 : Shape := ⟨2, ![131072, 128]⟩
abbrev S1x128 : Shape := ⟨2, ![1, 128]⟩
abbrev S131072x1 : Shape := ⟨2, ![131072, 1]⟩
abbrev S1x1 : Shape := ⟨2, ![1, 1]⟩
abbrev S2x65536 : Shape := ⟨2, ![2, 65536]⟩

abbrev nBuf : Space → Nat
  | .hbm => 50
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S1000000x64, .f32⟩
  | .hbm, ⟨3, _⟩ => ⟨S100000x64, .f32⟩
  | .hbm, ⟨4, _⟩ => ⟨S64x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S_, .i32⟩
  | .hbm, ⟨11, _⟩ => ⟨S65536, .i32⟩
  | .hbm, ⟨12, _⟩ => ⟨S65536, .i1⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S65536, .i32⟩
  | .hbm, ⟨17, _⟩ => ⟨S65536x1, .i32⟩
  | .hbm, ⟨18, _⟩ => ⟨S65536x64, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536x64, .f32⟩
  | .hbm, ⟨28, _⟩ => ⟨S131072x64, .f32⟩
  | .hbm, ⟨29, _⟩ => ⟨S131072x256, .f32⟩
  | .hbm, ⟨30, _⟩ => ⟨S1x256, .f32⟩
  | .hbm, ⟨31, _⟩ => ⟨S131072x256, .f32⟩
  | .hbm, ⟨32, _⟩ => ⟨S131072x256, .f32⟩
  | .hbm, ⟨33, _⟩ => ⟨S_, .f32⟩
  | .hbm, ⟨34, _⟩ => ⟨S131072x256, .f32⟩
  | .hbm, ⟨35, _⟩ => ⟨S131072x256, .f32⟩
  | .hbm, ⟨36, _⟩ => ⟨S131072x128, .f32⟩
  | .hbm, ⟨37, _⟩ => ⟨S1x128, .f32⟩
  | .hbm, ⟨38, _⟩ => ⟨S131072x128, .f32⟩
  | .hbm, ⟨39, _⟩ => ⟨S131072x128, .f32⟩
  | .hbm, ⟨40, _⟩ => ⟨S_, .f32⟩
  | .hbm, ⟨41, _⟩ => ⟨S131072x128, .f32⟩
  | .hbm, ⟨42, _⟩ => ⟨S131072x128, .f32⟩
  | .hbm, ⟨43, _⟩ => ⟨S131072x1, .f32⟩
  | .hbm, ⟨44, _⟩ => ⟨S1x1, .f32⟩
  | .hbm, ⟨45, _⟩ => ⟨S131072x1, .f32⟩
  | .hbm, ⟨46, _⟩ => ⟨S131072x1, .f32⟩
  | .hbm, ⟨47, _⟩ => ⟨S2x65536, .f32⟩
  | .hbm, ⟨48, _⟩ => ⟨S_, .f32⟩
  | .hbm, ⟨49, _⟩ => ⟨S65536, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  concatenates_S65536x64_S65536x64_S131072x64_d0 : Shape.Concatenates [S65536x64, S65536x64] S131072x64 0
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S2x65536 : S131072x1.ShapeCasts S2x65536
  reducesTo_S2x65536_S65536_d0 : S2x65536.ReducesTo [0] S65536
  h_S_ : 0 < S_.numel
  gather_S1000000x64_S65536x1_S65536x64_1_0_n_n_0_1_164_wf : GatherDims.WF S1000000x64 S65536x1 S65536x64 [1] [0] [] [0] [] 1 ![1, 64]
  gather_S100000x64_S65536x1_S65536x64_1_0_n_n_0_1_164_wf : GatherDims.WF S100000x64 S65536x1 S65536x64 [1] [0] [] [0] [] 1 ![1, 64]
  dot_S131072x64_S64x256_S131072x256_1_0_0_1_n_n_wf : DotDims.WF S131072x64 S64x256 S131072x256 [1] [0] [0] [1] [] []
  dot_S131072x256_S256x128_S131072x128_1_0_0_1_n_n_wf : DotDims.WF S131072x256 S256x128 S131072x128 [1] [0] [0] [1] [] []
  dot_S131072x128_S128x1_S131072x1_1_0_0_1_n_n_wf : DotDims.WF S131072x128 S128x1 S131072x1 [1] [0] [0] [1] [] []

variable [Facts₀]

def gather_S1000000x64_S65536x1_S65536x64_1_0_n_n_0_1_164 : GatherDims S1000000x64 S65536x1 S65536x64 where
  offsetDims := [1]
  collapsedSliceDims := [0]
  operandBatchingDims := []
  startIndicesBatchingDims := []
  startIndexMap := [0]
  indexVectorDim := 1
  sliceSizes := ![1, 64]
  wf := gather_S1000000x64_S65536x1_S65536x64_1_0_n_n_0_1_164_wf
def gather_S100000x64_S65536x1_S65536x64_1_0_n_n_0_1_164 : GatherDims S100000x64 S65536x1 S65536x64 where
  offsetDims := [1]
  collapsedSliceDims := [0]
  operandBatchingDims := []
  startIndicesBatchingDims := []
  startIndexMap := [0]
  indexVectorDim := 1
  sliceSizes := ![1, 64]
  wf := gather_S100000x64_S65536x1_S65536x64_1_0_n_n_0_1_164_wf
def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x1_S131072x1_1_0_0_1_n_n : DotDims S131072x128 S128x1 S131072x1 where
  lhsContracting := [1]
  rhsContracting := [0]
  lhsNonContracting := [0]
  rhsNonContracting := [1]
  lhsBatch := []
  rhsBatch := []
  wf := dot_S131072x128_S128x1_S131072x1_1_0_0_1_n_n_wf

class Facts : Prop extends Facts₀ where

variable [Facts]
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Score.lean ====
/-
  The function both programs compute.

  One embedding row x (64 numbers) is scored by a two-layer rectified network followed by a linear read-out:
    score x = (Σ_j max(Σ_k max(Σ_d x_d · W1[d,k] + b1[k], 0) · W2[k,j] + b2[j], 0) · w3[j]) + b3,
  with d < 64, k < 256, j < 128. A batch entry i has a user row and a movie row, and its result is the sum of the two
  scores. Everything is read over the extended reals; no law used below needs the entries to be finite.
-/
import Idealize.ShloMosaic.PureOps.Ideal
import Idealize.ShloMosaic.Lib.ValueIdx

noncomputable section

namespace Cert.Score

open Idealize.ShloMosaic Idealize.ShloMosaic.ValueIdx

/-- The first layer before its rectifier, at hidden unit k. -/
def hidden1 (W1 : (⟨2, ![64, 256]⟩ : Shape).Idx → EReal) (b1 : Fin 256 → EReal) (x : Fin 64 → EReal) (k : Fin 256) : EReal :=
  (∑ d : Fin 64, x d * W1 (ix2 d k)) + b1 k

/-- The rest of the network from the first layer's pre-activations h: rectify, second layer, rectify, read out. -/
def readout (W2 : (⟨2, ![256, 128]⟩ : Shape).Idx → EReal) (b2 w3 : Fin 128 → EReal) (b3 : EReal) (h : Fin 256 → EReal) : EReal :=
  (∑ j : Fin 128, max ((∑ k : Fin 256, max (h k) 0 * W2 (ix2 k j)) + b2 j) 0 * w3 j) + b3

/-- The score of one embedding row. -/
def score (W1 : (⟨2, ![64, 256]⟩ : Shape).Idx → EReal) (b1 : Fin 256 → EReal) (W2 : (⟨2, ![256, 128]⟩ : Shape).Idx → EReal)
    (b2 w3 : Fin 128 → EReal) (b3 : EReal) (x : Fin 64 → EReal) : EReal :=
  readout W2 b2 w3 b3 (hidden1 W1 b1 x)

/-- The result vector: at batch entry i the user row's score plus the movie row's score, the parameters read from
    arrays of the shapes the programs are given (b1, b2, b3 vectors, W3 a 128-by-1 column). -/
def total (eu em : (⟨2, ![65536, 64]⟩ : Shape).Idx → EReal) (W1 : (⟨2, ![64, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (W3 : (⟨2, ![128, 1]⟩ : Shape).Idx → EReal)
    (b3 : (⟨1, ![1]⟩ : Shape).Idx → EReal) : (⟨1, ![65536]⟩ : Shape).Idx → EReal :=
  fun i =>
    score W1 (fun k => b1 (ix1 k)) W2 (fun j => b2 (ix1 j)) (fun j => W3 (ix2 j (0 : Fin 1))) (b3 (ix1 (0 : Fin 1)))
        (fun d => eu (ix2 (i 0) d))
      + score W1 (fun k => b1 (ix1 k)) W2 (fun j => b2 (ix1 j)) (fun j => W3 (ix2 j (0 : Fin 1))) (b3 (ix1 (0 : Fin 1)))
        (fun d => em (ix2 (i 0) d))

end Cert.Score

end
-- ==== Proof.KernelBlock.lean ====
/-
  What one grid step of the kernel stores, read at one row.

  A grid step holds a block of 4096 user rows and the block of the same 4096 movie rows, together with the whole
  parameter arrays (b1, b2, w3 as 1-by-n rows, b3 as a 1-by-1 array). The value it stores is a 4096-by-1 column; its
  entry at row p is the score of user row p plus the score of movie row p. The narrowing of the matrix products'
  operands to a shorter float format is the identity on extended reals, a matrix product into a zero accumulator is the
  textbook sum, and the sum along the lanes is the sum over the 128 second-layer units.
-/
import proofs.«106467_j42812234007043_1_alg».proof.Proof.Gen.KernelIdeal.Skeleton
import proofs.«106467_j42812234007043_1_alg».proof.Proof.LibColumn
import proofs.«106467_j42812234007043_1_alg».proof.Proof.LibPlainContract
import proofs.«106467_j42812234007043_1_alg».proof.Proof.Score
import Idealize.ShloMosaic.Lib.ValueLayout

noncomputable section

namespace Cert.KernelIdeal.Block

open Idealize.ShloMosaic Idealize.ShloMosaic.ValueIdx
open Cert.KernelIdeal Cert.KernelIdeal.Gen Cert.Score

/-- Both matrix products are plain row-by-column products. -/
theorem dot1_plain : dot_S4096x64_S64x256_S4096x256_1_0_0_1_n_n = DotDims.plain 4096 64 256 := rfl
theorem dot2_plain : dot_S4096x256_S256x128_S4096x128_1_0_0_1_n_n = DotDims.plain 4096 256 128 := rfl

/-- The network after the first layer's pre-activations, as the body writes it, for any float reading. -/
def tailOf {F : FTy → Type} [FloatOps F] (h : FVec F S4096x256 .f32) (v3 : FVec F S256x128 .bf16) (v9 v5 : FVec F S1x128 .f32)
    (v11 : FVec F S1x1 .f32) : FVec F S4096x1 .f32 :=
  addf (shapeCast S4096x1 (multiReduction .add [1] S4096
      (mulf (maximumf (addf (matmul dot_S4096x256_S256x128_S4096x128_1_0_0_1_n_n none
          (truncf .bf16 (maximumf h (broadcast S4096x256 (Scalar.ofBits .f32 0x00000000#32))) bitsLt_bf16_f32) v3
          (constant S4096x128 .f32 0x00000000#32)) (broadcastTo S4096x128 v9 broadcasts_S1x128_S4096x128))
        (broadcast S4096x128 (Scalar.ofBits .f32 0x00000000#32))) (broadcastTo S4096x128 v5 broadcasts_S1x128_S4096x128))
      0x00000000#32 reduces_S4096x128_S4096 (.inl rfl) rfl) shapeCasts_S4096_S4096x1)
    (broadcastTo S4096x1 v11 broadcasts_S1x1_S4096x1)

/-- The first layer's pre-activations of a block of rows, as the body writes them. -/
def preOf {F : FTy → Type} [FloatOps F] (x : Vec F S4096x64 .f32) (v0 : Vec F S64x256 .f32) (v6 : Vec F S1x256 .f32) :
    FVec F S4096x256 .f32 :=
  addf (matmul dot_S4096x64_S64x256_S4096x256_1_0_0_1_n_n none
      (truncf .bf16 (shapeCast S4096x64 x shapeCasts_S4096x64_S4096x64) bitsLt_bf16_f32) (k0_pay2 v0)
      (constant S4096x256 .f32 0x00000000#32))
    (broadcastTo S4096x256 (k0_pay5 v6) broadcasts_S1x256_S4096x256)

/-- The user half of the body is the first layer followed by the rest. -/
theorem pay8_eq {F : FTy → Type} [FloatOps F] (v0 : Vec F S64x256 .f32) (v2 : Vec F S256x128 .f32) (v4 : Vec F S1x128 .f32)
    (v6 : Vec F S1x256 .f32) (v8 : Vec F S1x128 .f32) (v10 : Vec F S1x1 .f32) (v12 : Vec F S4096x64 .f32) :
    k0_pay8 v0 v2 v4 v6 v8 v10 v12 = tailOf (preOf v12 v0 v6) (k0_pay3 v2) (k0_pay6 v8) (k0_pay4 v4) (k0_pay7 v10) := rfl

/-- The stored value is the user half plus the rest of the network applied to the movie half's first layer. -/
theorem pay1_eq {F : FTy → Type} [FloatOps F] (v3 : FVec F S256x128 .bf16) (v5 v9 : FVec F S1x128 .f32) (v11 : FVec F S1x1 .f32)
    (v31 : FVec F S4096x1 .f32) (v35 v36 : FVec F S4096x256 .f32) :
    k0_pay1 v3 v5 v9 v11 v31 v35 v36 = addf v31 (tailOf (addf v35 v36) v3 v9 v5 v11) := rfl

/-- The movie half's first layer, in the two pieces the body carries it in. -/
theorem pay9_pay10_eq {F : FTy → Type} [FloatOps F] (v0 : Vec F S64x256 .f32) (v6 : Vec F S1x256 .f32) (v32 : Vec F S4096x64 .f32) :
    addf (k0_pay9 v0 v32) (k0_pay10 v6) = preOf v32 v0 v6 := rfl

/-- First layer at row p and hidden unit k: the sum over the 64 inputs plus the bias. -/
theorem preOf_apply (x : Vec Ideal S4096x64 .f32) (v0 : Vec Ideal S64x256 .f32) (v6 : Vec Ideal S1x256 .f32)
    (p : Fin 4096) (k : Fin 256) :
    preOf (F := Ideal) x v0 v6 (ix2 p k) = hidden1 v0 (fun k => v6 (ix2 (0 : Fin 1) k)) (fun d => x (ix2 p d)) k := by
  unfold preOf k0_pay2 k0_pay5 hidden1
  dsimp only
  rw [dot1_plain, shapeCast_self, shapeCast_self, addf_apply, broadcastTo_1b_ab_apply]
  refine congrArg (· + _) ?_
  exact LibPlainContract.matmul_plain_apply 4096 64 256 none _ _ p k

/-- The rest of the network at row p: rectify, second layer, rectify, weigh by w3 and add up, add b3. -/
theorem tailOf_apply (h : FVec Ideal S4096x256 .f32) (v3 : FVec Ideal S256x128 .bf16) (v9 v5 : FVec Ideal S1x128 .f32)
    (v11 : FVec Ideal S1x1 .f32) (p : Fin 4096) (u : Fin 1) :
    tailOf (F := Ideal) h v3 v9 v5 v11 (ix2 p u)
      = readout v3 (fun j => v9 (ix2 (0 : Fin 1) j)) (fun j => v5 (ix2 (0 : Fin 1) j)) (v11 (ix2 (0 : Fin 1) (0 : Fin 1)))
          (fun k => h (ix2 p k)) := by
  unfold tailOf readout
  rw [dot2_plain, addf_apply, LibColumn.shapeCast_a_a1_apply, LibColumn.laneSum_apply, broadcastTo_1b_ab_apply]
  have hu : u = (0 : Fin 1) := Subsingleton.elim _ _
  subst hu
  refine congrArg (· + _) (Finset.sum_congr rfl fun j _ => ?_)
  rw [mulf_apply, maximumf_apply, addf_apply, broadcast_apply, broadcastTo_1b_ab_apply, broadcastTo_1b_ab_apply]
  simp only [matmul]
  rw [LibPlainContract.matmul_plain_apply]
  simp only [truncf_apply, maximumf_apply, broadcast_apply, Scalar.ofBits, Ideal.ofBits_def, Ideal.ofBits_zero_f32]

end Cert.KernelIdeal.Block

end
-- ==== Proof.KernelArray.lean ====
/-
  The array the kernel's region leaves behind.

  The region's output is a 65536-by-1 column written in 16 blocks of 4096 rows; grid step t writes rows
  4096·t … 4096·t + 4095 and reads the same rows of the two gathered embedding arrays, while the parameter arrays are
  read whole at every step. So entry (r, 0) of the column is the score of user row r plus the score of movie row r:
  each step's block is the restriction of that one function, and the 16 blocks cover every row.
-/
import proofs.«106467_j42812234007043_1_alg».proof.Proof.Gen.KernelIdeal.Frame
import proofs.«106467_j42812234007043_1_alg».proof.Proof.KernelBlock
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.Score

variable (m : (ℓ : Loc nD τ sig) → Buf (Elt Ideal) ℓ)

theorem hz : (![0, 0] : Fin 2 → Nat) = fun _ => 0 := funext fun a => by fin_cases a <;> rfl

/-- The column of summed scores, from the two gathered embedding arrays and the parameter arrays in the shapes the
    region is handed them (biases and read-out weights as one-row arrays). -/
def column (eu em : S65536x64.Idx → EReal) (W1 : S64x256.Idx → EReal) (b1 : S1x256.Idx → EReal) (W2 : S256x128.Idx → EReal)
    (b2 w3 : S1x128.Idx → EReal) (b3 : S1x1.Idx → EReal) : S65536x1.Idx → EReal :=
  fun i =>
    score W1 (fun k => b1 (ix2 (0 : Fin 1) k)) W2 (fun j => b2 (ix2 (0 : Fin 1) j)) (fun j => w3 (ix2 (0 : Fin 1) j))
        (b3 (ix2 (0 : Fin 1) (0 : Fin 1))) (fun d => eu (ix2 (⟨(i 0).val, (i 0).isLt⟩ : Fin 65536) d))
      + score W1 (fun k => b1 (ix2 (0 : Fin 1) k)) W2 (fun j => b2 (ix2 (0 : Fin 1) j)) (fun j => w3 (ix2 (0 : Fin 1) j))
        (b3 (ix2 (0 : Fin 1) (0 : Fin 1))) (fun d => em (ix2 (⟨(i 0).val, (i 0).isLt⟩ : Fin 65536) d))

/-- What a step stores at row p of its block, when its two embedding blocks hold rows r of the gathered arrays there:
    the column's entry at row r. -/
theorem out_row (x0 x1 : Vec Ideal S4096x64 .f32) (x2 : Vec Ideal S64x256 .f32) (x3 : Vec Ideal S1x256 .f32)
    (x4 : Vec Ideal S256x128 .f32) (x5 x6 : Vec Ideal S1x128 .f32) (x7 : Vec Ideal S1x1 .f32)
    (eu em : S65536x64.Idx → EReal) (p : Fin 4096) (u : Fin 1) (r : Fin 65536)
    (h0 : ∀ d : Fin 64, x0 (ix2 p d) = eu (ix2 r d)) (h1 : ∀ d : Fin 64, x1 (ix2 p d) = em (ix2 r d)) :
    out0_8 (F := Ideal) x0 x1 x2 x3 x4 x5 x6 x7 (ix2 p u) = column eu em x2 x3 x4 x5 x6 x7 (ix2 r (0 : Fin 1)) := by
  unfold out0_8
  rw [View.canon_unit_zero hz]
  simp only [View.ld_unit_zero (S := S4096x64) hz, View.ld_unit_zero (S := S64x256) hz, View.ld_unit_zero (S := S1x256) hz,
    View.ld_unit_zero (S := S256x128) hz, View.ld_unit_zero (S := S1x128) hz, View.ld_unit_zero (S := S1x1) hz]
  rw [Block.pay1_eq, Block.pay8_eq, Block.pay9_pay10_eq, addf_apply, Block.tailOf_apply, Block.tailOf_apply]
  unfold column score
  simp only [Block.preOf_apply, h0, h1, k0_pay3, k0_pay4, k0_pay6, k0_pay7, shapeCast_self]
  rfl

/-- The block indices of the windows that move with the grid, decided over the 16 points: block t on the row axis,
    block 0 on the other; the parameter windows always sit at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

theorem idx_whole : ∀ t : Fin cfg0.N, (∀ a : Fin 2, win0_2.index t a = 0) ∧ (∀ a : Fin 2, win0_3.index t a = 0)
    ∧ (∀ a : Fin 2, win0_4.index t a = 0) ∧ (∀ a : Fin 2, win0_5.index t a = 0)
    ∧ (∀ a : Fin 2, win0_6.index t a = 0) ∧ (∀ a : Fin 2, win0_7.index t a = 0) :=
  (by decide +kernel : ∀ t : Fin grid0.N, _)

/-- Row p of step t's user block is row 4096·t + p of the gathered user array. -/
theorem blk0_row (c : Dev nD) (t : Fin cfg0.N) (p : Fin 4096) (d : Fin 64) (r : Fin 65536) (hr : r.val = t.val * 4096 + p.val) :
    (iblk m c 0 t : Vec Ideal S4096x64 .f32) (ix2 p d) = (V m c main_v6 : S65536x64.Idx → EReal) (ix2 r d) := by
  obtain ⟨e00, e01, -, -, -, -⟩ := idx_facts t
  show V m c main_v6 (((cfg0.win 0).blk t).view.emb (ix2 p d)) = V m c main_v6 (ix2 r d)
  refine congrArg _ (funext fun a => Fin.ext ?_)
  match a with
  | ⟨0, _⟩ => show win0_0.index t (0 : Fin 2) * 4096 + 1 * p.val = r.val; rw [e00, hr]; omega
  | ⟨1, _⟩ => show win0_0.index t (1 : Fin 2) * 64 + 1 * d.val = d.val; rw [e01]; omega

/-- The same for the movie block. -/
theorem blk1_row (c : Dev nD) (t : Fin cfg0.N) (p : Fin 4096) (d : Fin 64) (r : Fin 65536) (hr : r.val = t.val * 4096 + p.val) :
    (iblk m c 1 t : Vec Ideal S4096x64 .f32) (ix2 p d) = (V m c main_v13 : S65536x64.Idx → EReal) (ix2 r d) := by
  obtain ⟨-, -, e10, e11, -, -⟩ := idx_facts t
  show V m c main_v13 (((cfg0.win 1).blk t).view.emb (ix2 p d)) = V m c main_v13 (ix2 r d)
  refine congrArg _ (funext fun a => Fin.ext ?_)
  match a with
  | ⟨0, _⟩ => show win0_1.index t (0 : Fin 2) * 4096 + 1 * p.val = r.val; rw [e10, hr]; omega
  | ⟨1, _⟩ => show win0_1.index t (1 : Fin 2) * 64 + 1 * d.val = d.val; rw [e11]; omega

/-- Each parameter window's block, at every step, is its whole array. -/
theorem blk2_eq (c : Dev nD) (t : Fin cfg0.N) : (iblk m c 2 t : Vec Ideal S64x256 .f32) = V m c main_arg4 := by
  obtain ⟨e, -, -, -, -, -⟩ := idx_whole t
  funext i
  show V m c main_arg4 (((cfg0.win 2).blk t).view.emb i) = V m c main_arg4 i
  refine congrArg _ (funext fun a => Fin.ext ?_)
  match a with
  | ⟨0, _⟩ => show win0_2.index t (0 : Fin 2) * 64 + 1 * (i 0).val = (i 0).val; rw [e 0]; omega
  | ⟨1, _⟩ => show win0_2.index t (1 : Fin 2) * 256 + 1 * (i 1).val = (i 1).val; rw [e 1]; omega
theorem blk3_eq (c : Dev nD) (t : Fin cfg0.N) : (iblk m c 3 t : Vec Ideal S1x256 .f32) = V m c main_v14 := by
  obtain ⟨-, e, -, -, -, -⟩ := idx_whole t
  funext i
  show V m c main_v14 (((cfg0.win 3).blk t).view.emb i) = V m c main_v14 i
  refine congrArg _ (funext fun a => Fin.ext ?_)
  match a with
  | ⟨0, _⟩ => show win0_3.index t (0 : Fin 2) * 1 + 1 * (i 0).val = (i 0).val; rw [e 0]; omega
  | ⟨1, _⟩ => show win0_3.index t (1 : Fin 2) * 256 + 1 * (i 1).val = (i 1).val; rw [e 1]; omega
theorem blk4_eq (c : Dev nD) (t : Fin cfg0.N) : (iblk m c 4 t : Vec Ideal S256x128 .f32) = V m c main_arg6 := by
  obtain ⟨-, -, e, -, -, -⟩ := idx_whole t
  funext i
  show V m c main_arg6 (((cfg0.win 4).blk t).view.emb i) = V m c main_arg6 i
  refine congrArg _ (funext fun a => Fin.ext ?_)
  match a with
  | ⟨0, _⟩ => show win0_4.index t (0 : Fin 2) * 256 + 1 * (i 0).val = (i 0).val; rw [e 0]; omega
  | ⟨1, _⟩ => show win0_4.index t (1 : Fin 2) * 128 + 1 * (i 1).val = (i 1).val; rw [e 1]; omega
theorem blk5_eq (c : Dev nD) (t : Fin cfg0.N) : (iblk m c 5 t : Vec Ideal S1x128 .f32) = V m c main_v15 := by
  obtain ⟨-, -, -, e, -, -⟩ := idx_whole t
  funext i
  show V m c main_v15 (((cfg0.win 5).blk t).view.emb i) = V m c main_v15 i
  refine congrArg _ (funext fun a => Fin.ext ?_)
  match a with
  | ⟨0, _⟩ => show win0_5.index t (0 : Fin 2) * 1 + 1 * (i 0).val = (i 0).val; rw [e 0]; omega
  | ⟨1, _⟩ => show win0_5.index t (1 : Fin 2) * 128 + 1 * (i 1).val = (i 1).val; rw [e 1]; omega
theorem blk6_eq (c : Dev nD) (t : Fin cfg0.N) : (iblk m c 6 t : Vec Ideal S1x128 .f32) = V m c main_v17 := by
  obtain ⟨-, -, -, -, e, -⟩ := idx_whole t
  funext i
  show V m c main_v17 (((cfg0.win 6).blk t).view.emb i) = V m c main_v17 i
  refine congrArg _ (funext fun a => Fin.ext ?_)
  match a with
  | ⟨0, _⟩ => show win0_6.index t (0 : Fin 2) * 1 + 1 * (i 0).val = (i 0).val; rw [e 0]; omega
  | ⟨1, _⟩ => show win0_6.index t (1 : Fin 2) * 128 + 1 * (i 1).val = (i 1).val; rw [e 1]; omega
theorem blk7_eq (c : Dev nD) (t : Fin cfg0.N) : (iblk m c 7 t : Vec Ideal S1x1 .f32) = V m c main_v16 := by
  obtain ⟨-, -, -, -, -, e⟩ := idx_whole t
  funext i
  show V m c main_v16 (((cfg0.win 7).blk t).view.emb i) = V m c main_v16 i
  refine congrArg _ (funext fun a => Fin.ext ?_)
  match a with
  | ⟨0, _⟩ => show win0_7.index t (0 : Fin 2) * 1 + 1 * (i 0).val = (i 0).val; rw [e 0]; omega
  | ⟨1, _⟩ => show win0_7.index t (1 : Fin 2) * 1 + 1 * (i 1).val = (i 1).val; rw [e 1]; omega

/-- The column as the region's arrays give it. -/
abbrev col (c : Dev nD) : S65536x1.Idx → EReal :=
  column (V m c main_v6) (V m c main_v13) (V m c main_arg4) (V m c main_v14) (V m c main_arg6) (V m c main_v15)
    (V m c main_v17) (V m c main_v16)

/-- What step t stores at entry j of its block is the column at the entry of the array that block entry lies on. -/
theorem stored_at (c : Dev nD) (t : Fin cfg0.N) (j : S4096x1.Idx) :
    out0_8 (iblk m c 0 t) (iblk m c 1 t) (iblk m c 2 t) (iblk m c 3 t) (iblk m c 4 t) (iblk m c 5 t) (iblk m c 6 t)
        (iblk m c 7 t) j
      = col m c (((cfg0.win 8).blk t).view.emb j) := by
  obtain ⟨-, -, -, -, e80, e81⟩ := idx_facts t
  have hN : cfg0.N = 16 := N_0
  have ht : t.val < 16 := by have := t.isLt; omega
  obtain ⟨p, u, rfl⟩ : ∃ (p : Fin 4096) (u : Fin 1), j = ix2 p u := ⟨j 0, j 1, eq_ix2 j⟩
  have hp : p.val < 4096 := p.isLt
  have hr : ((cfg0.win 8).blk t).view.emb (ix2 p u) = ix2 (⟨t.val * 4096 + p.val, by omega⟩ : Fin 65536) (0 : Fin 1) := by
    funext a
    apply Fin.ext
    match a with
    | ⟨0, _⟩ => show win0_8.index t (0 : Fin 2) * 4096 + 1 * p.val = t.val * 4096 + p.val; rw [e80]; omega
    | ⟨1, _⟩ => show win0_8.index t (1 : Fin 2) * 1 + 1 * u.val = 0; rw [e81]; omega
  rw [hr]
  refine (out_row (iblk m c 0 t) (iblk m c 1 t) (iblk m c 2 t) (iblk m c 3 t) (iblk m c 4 t) (iblk m c 5 t) (iblk m c 6 t)
    (iblk m c 7 t) (V m c main_v6) (V m c main_v13) p u ⟨t.val * 4096 + p.val, by omega⟩
    (fun d => blk0_row m c t p d _ rfl) (fun d => blk1_row m c t p d _ rfl)).trans ?_
  unfold col
  rw [blk2_eq, blk3_eq, blk4_eq, blk5_eq, blk6_eq, blk7_eq]

/-- What step t writes back is block t of the column. -/
theorem flushed_eq (c : Dev nD) (t : Fin cfg0.N) :
    (dats m 0 c).flushed 8 t = ((cfg0.win 8).blk t).view.read (Elt Ideal) (col m c) := by
  show (cfg0.win 8).cut (grid0.coords t) ((dats m 0 c).after 8 t) = _
  rw [after0_8]
  exact funext fun j => stored_at m c t j

/-- An index of the output array is in step t's block iff each coordinate is in the block's range on its axis. -/
theorem mem_blk (t : Fin cfg0.N) (i : S65536x1.Idx) :
    i ∈ ((cfg0.win 8).blk t).view.set ↔ ∀ a : Fin 2, win0_8.index t a * S4096x1.size a ≤ (i a).val
      ∧ (i a).val < win0_8.index t a * S4096x1.size a + S4096x1.size a := by
  show i ∈ ((View.whole main_v18).slice (win0_8.rect t)).set ↔ _
  rw [View.set_slice_whole, Rect.mem_set_unit]
  exact Iff.rfl

/-- Row r lies in the block of step r / 4096, and every step writes its block back: the blocks cover the array. -/
theorem cover (i : S65536x1.Idx) :
    ∃ t : Fin cfg0.N, (cfg0.win 8).flush t = true ∧ i ∈ ((cfg0.win 8).blk t).view.set := by
  have hi0 : (i 0).val < 65536 := (i 0).isLt
  have hi1 : (i 1).val < 1 := (i 1).isLt
  have hN : grid0.N = 16 := N_0
  obtain ⟨t, ht⟩ : ∃ t : Fin cfg0.N, t.val = (i 0).val / 4096 := ⟨⟨(i 0).val / 4096, by show _ < grid0.N; omega⟩, rfl⟩
  obtain ⟨-, -, -, -, e80, e81⟩ := idx_facts t
  refine ⟨t, flush0_8 t, ?_⟩
  rw [mem_blk]
  intro a
  match a with
  | ⟨0, _⟩ =>
    show win0_8.index t (0 : Fin 2) * 4096 ≤ (i 0).val ∧ (i 0).val < win0_8.index t (0 : Fin 2) * 4096 + 4096
    rw [e80, ht]; omega
  | ⟨1, _⟩ =>
    show win0_8.index t (1 : Fin 2) * 1 ≤ (i 1).val ∧ (i 1).val < win0_8.index t (1 : Fin 2) * 1 + 1
    rw [e81]; omega

/-- So the output array ends holding the column. -/
theorem final (c : Dev nD) : (dats m 0 c).arrAt 8 cfg0.N = col m c :=
  (dats m 0 c).arrAt_eq_of_cover 8 (col m c) (fun t _ => flushed_eq m c t) cover

end Cert.KernelIdeal.Arr

end
-- ==== Proof.KernelHost.lean ====
/-
  The kernel's whole program, read as a function of its arguments.

  Before the region the program wraps negative ids (adds the table's length to an id below zero), gathers one table row
  per id from each of the two tables, and reshapes the bias vectors and the 128-by-1 read-out column into one-row
  arrays; after the region it reshapes the 65536-by-1 column into a vector. Reading those reshapes at an entry turns the
  region's column into the result vector: entry i is the score of gathered user row i plus the score of gathered movie
  row i, with the parameters read from the argument arrays themselves.
-/
import proofs.«106467_j42812234007043_1_alg».proof.Proof.Gen.KernelIdeal.Frame
import proofs.«106467_j42812234007043_1_alg».proof.Proof.KernelArray
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.HostSide

open Cert.KernelIdeal Cert.KernelIdeal.Gen Cert.Score Cert.KernelIdeal.Arr

variable (m : (ℓ : Loc nD τ sig) → Buf (Elt Ideal) ℓ) (ρ : Dev nD → PrngReg)

/-- The user rows: ids below zero moved up by the table's length, then one row of the table per id. -/
def rowsU (ids : (⟨S65536, .i32⟩ : BufTy).Contents (Elt Ideal)) (tbl : (⟨S1000000x64, .f32⟩ : BufTy).Contents (Elt Ideal)) :
    (⟨S65536x64, .f32⟩ : BufTy).Contents (Elt Ideal) :=
  Host.gather gather_S1000000x64_S65536x1_S65536x64_1_0_n_n_0_1_164 tbl
    (broadcastInDim S65536x1 ![0] bcast_S65536_S65536x1_0
      (select (cmpi .slt ids (broadcastInDim S65536 ![] bcast_S_S65536 (constantI S_ 32 0#32)))
        (addi ids (broadcastInDim S65536 ![] bcast_S_S65536 (constantI S_ 32 1000000#32))) ids))

/-- The movie rows, likewise. -/
def rowsM (ids : (⟨S65536, .i32⟩ : BufTy).Contents (Elt Ideal)) (tbl : (⟨S100000x64, .f32⟩ : BufTy).Contents (Elt Ideal)) :
    (⟨S65536x64, .f32⟩ : BufTy).Contents (Elt Ideal) :=
  Host.gather gather_S100000x64_S65536x1_S65536x64_1_0_n_n_0_1_164 tbl
    (broadcastInDim S65536x1 ![0] bcast_S65536_S65536x1_0
      (select (cmpi .slt ids (broadcastInDim S65536 ![] bcast_S_S65536 (constantI S_ 32 0#32)))
        (addi ids (broadcastInDim S65536 ![] bcast_S_S65536 (constantI S_ 32 100000#32))) ids))

/-- What the region finds in each array the lines before it wrote. -/
theorem V_v6 (c : Dev nD) : V m c main_v6 = rowsU (m ((c : Thread nD τ).loc main_arg0)) (m ((c : Thread nD τ).loc main_arg2)) := by
  show StableHlo.after hostOps0 (fun b => m (c, b)) (Proc.devRef .tc main_v6) = _
  after_results
  rfl
theorem V_v13 (c : Dev nD) : V m c main_v13 = rowsM (m ((c : Thread nD τ).loc main_arg1)) (m ((c : Thread nD τ).loc main_arg3)) := by
  show StableHlo.after hostOps0 (fun b => m (c, b)) (Proc.devRef .tc main_v13) = _
  after_results
  rfl
theorem V_v14 (c : Dev nD) : (V m c main_v14 : S1x256.Idx → EReal) = shapeCast S1x256 (m ((c : Thread nD τ).loc main_arg5)) shapeCasts_S256_S1x256 := by
  show StableHlo.after hostOps0 (fun b => m (c, b)) (Proc.devRef .tc main_v14) = _
  after_results
  rfl
theorem V_v15 (c : Dev nD) : (V m c main_v15 : S1x128.Idx → EReal) = shapeCast S1x128 (m ((c : Thread nD τ).loc main_arg7)) shapeCasts_S128_S1x128 := by
  show StableHlo.after hostOps0 (fun b => m (c, b)) (Proc.devRef .tc main_v15) = _
  after_results
  rfl
theorem V_v16 (c : Dev nD) : (V m c main_v16 : S1x1.Idx → EReal) = shapeCast S1x1 (m ((c : Thread nD τ).loc main_arg9)) shapeCasts_S1_S1x1 := by
  show StableHlo.after hostOps0 (fun b => m (c, b)) (Proc.devRef .tc main_v16) = _
  after_results
  rfl
theorem V_v17 (c : Dev nD) : (V m c main_v17 : S1x128.Idx → EReal) = shapeCast S1x128 (m ((c : Thread nD τ).loc main_arg8)) shapeCasts_S128x1_S1x128 := by
  show StableHlo.after hostOps0 (fun b => m (c, b)) (Proc.devRef .tc main_v17) = _
  after_results
  rfl

/-- The column over reshaped parameters, reshaped to a vector, is the result vector over the parameters themselves:
    the one-row arrays read at (0, k) are the vectors at k, the read-out row at (0, j) is the column at (j, 0), and
    the vector's entry r is the column's entry (r, 0). -/
theorem column_vector (eu em : S65536x64.Idx → EReal) (W1 : S64x256.Idx → EReal) (b1 : S256.Idx → EReal)
    (W2 : S256x128.Idx → EReal) (b2 : S128.Idx → EReal) (W3 : S128x1.Idx → EReal) (b3 : S1.Idx → EReal) :
    shapeCast S65536 (column eu em W1 (shapeCast S1x256 b1 shapeCasts_S256_S1x256) W2 (shapeCast S1x128 b2 shapeCasts_S128_S1x128)
        (shapeCast S1x128 W3 shapeCasts_S128x1_S1x128) (shapeCast S1x1 b3 shapeCasts_S1_S1x1)) shapeCasts_S65536x1_S65536
      = total eu em W1 b1 W2 b2 W3 b3 := by
  funext i
  obtain ⟨r, rfl⟩ : ∃ r : Fin 65536, i = ix1 r := ⟨i 0, eq_ix1 i⟩
  rw [LibColumn.shapeCast_a1_a_apply]
  unfold column total
  simp only [shapeCast_a_1a_apply, LibColumn.shapeCast_a1_1a_apply]

/-- The result buffer after the lines that follow the region. -/
theorem result_eq (c : Dev nD) :
    Pipeline.afterTail₀ cfgs (dats m) 0 (V0 m) [hostOps1] c main_v19
      = total (rowsU (m ((c : Thread nD τ).loc main_arg0)) (m ((c : Thread nD τ).loc main_arg2)))
          (rowsM (m ((c : Thread nD τ).loc main_arg1)) (m ((c : Thread nD τ).loc main_arg3)))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  have hw : Pipeline.withArrays (cfgs 0).spec c (V0 m c) (fun w => (dats m 0 c).arrAt w (cfgs 0).N) (Proc.devRef .tc main_v18)
      = col m c :=
    (Pipeline.withArrays_arr spec0 launch0.win.arr_inj c _ _ 8).trans (Arr.final m c)
  have hcol : col m c = column (rowsU (m ((c : Thread nD τ).loc main_arg0)) (m ((c : Thread nD τ).loc main_arg2)))
      (rowsM (m ((c : Thread nD τ).loc main_arg1)) (m ((c : Thread nD τ).loc main_arg3))) (m ((c : Thread nD τ).loc main_arg4))
      (shapeCast S1x256 (m ((c : Thread nD τ).loc main_arg5)) shapeCasts_S256_S1x256) (m ((c : Thread nD τ).loc main_arg6))
      (shapeCast S1x128 (m ((c : Thread nD τ).loc main_arg7)) shapeCasts_S128_S1x128)
      (shapeCast S1x128 (m ((c : Thread nD τ).loc main_arg8)) shapeCasts_S128x1_S1x128)
      (shapeCast S1x1 (m ((c : Thread nD τ).loc main_arg9)) shapeCasts_S1_S1x1) := by
    unfold col
    rw [V_v6, V_v13, V_v14, V_v15, V_v16, V_v17, V_main_arg4, V_main_arg6]
  unfold Pipeline.afterTail₀
  show StableHlo.after hostOps1 _ (Proc.devRef .tc main_v19) = _
  after_results
  rw [hw, hcol]
  exact column_vector _ _ _ _ _ _ _ _

/-- The kernel's run, read: the result at the summed scores of the gathered rows, every argument unchanged. -/
theorem run : θ_run defs (onTc (τ := τ) (main (F := Ideal))) ⟨m, fun _ => 0, ρ⟩ fun r => ∀ c : Dev nD,
      r.2.mem ((c.tc : Thread nD τ).loc main_v19)
        = total (rowsU (m ((c : Thread nD τ).loc main_arg0)) (m ((c : Thread nD τ).loc main_arg2)))
          (rowsM (m ((c : Thread nD τ).loc main_arg1)) (m ((c : Thread nD τ).loc main_arg3)))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c),
      ((h c).1 4).trans (((dats m 0 c).arrAt_in 4 rfl _).trans ((A_eq m c 4).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.HostSide

end
-- ==== Proof.Reference.lean ====
/-
  The reference program computes the same vector.

  The reference stacks the 65536 gathered user rows on top of the 65536 gathered movie rows, runs the network on all
  131072 rows at once (three matrix products, the last one against the 128-by-1 read-out column), views the 131072
  scores as 2 rows of 65536 and adds the two rows starting from zero. Row q of the stack is user row q for q < 65536
  and movie row q − 65536 otherwise, and a row's score depends on that row only; so entry i of the result is
  0 + score(user row i) + score(movie row i), and 0 + x = x on the extended reals.
-/
import proofs.«106467_j42812234007043_1_alg».proof.Proof.Gen.ReferenceIdeal.Read
import proofs.«106467_j42812234007043_1_alg».proof.Proof.Score
import Idealize.ShloMosaic.Lib.Pipeline.Value
import Idealize.ShloMosaic.Lib.ValueIdx

noncomputable section

namespace Cert.ReferenceIdeal.Bridge

open Idealize.ShloMosaic Idealize.ShloMosaic.ValueIdx
open Cert.ReferenceIdeal Cert.ReferenceIdeal.Gen Cert.ReferenceIdeal.Read Cert.Score

variable (x0 x1 : (⟨S65536, .i32⟩ : BufTy).Contents (Elt Ideal)) (x2 : (⟨S1000000x64, .f32⟩ : BufTy).Contents (Elt Ideal))
    (x3 : (⟨S100000x64, .f32⟩ : BufTy).Contents (Elt Ideal)) (x4 : (⟨S64x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) (x8 : (⟨S128x1, .f32⟩ : BufTy).Contents (Elt Ideal))
    (x9 : (⟨S1, .f32⟩ : BufTy).Contents (Elt Ideal))

/-! The index maps of the generated read lemmas, at indices written by coordinates. -/

theorem l15 (q : Fin 131072) (k : Fin 256) (d : Fin 64) : lidx_main_v15 (ix2 q k) d = ix2 q d :=
  funext fun a => Fin.ext (by match a with | ⟨0, _⟩ => rfl | ⟨1, _⟩ => rfl)
theorem r15 (q : Fin 131072) (k : Fin 256) (d : Fin 64) : ridx_main_v15 (ix2 q k) d = ix2 d k :=
  funext fun a => Fin.ext (by match a with | ⟨0, _⟩ => rfl | ⟨1, _⟩ => rfl)
theorem i17 (q : Fin 131072) (k : Fin 256) : idx_main_v16 (idx_main_v17 (ix2 q k)) = ix1 k :=
  funext fun a => Fin.ext (by match a with | ⟨0, _⟩ => rfl)
theorem l20 (q : Fin 131072) (j : Fin 128) (k : Fin 256) : lidx_main_v20 (ix2 q j) k = ix2 q k :=
  funext fun a => Fin.ext (by match a with | ⟨0, _⟩ => rfl | ⟨1, _⟩ => rfl)
theorem r20 (q : Fin 131072) (j : Fin 128) (k : Fin 256) : ridx_main_v20 (ix2 q j) k = ix2 k j :=
  funext fun a => Fin.ext (by match a with | ⟨0, _⟩ => rfl | ⟨1, _⟩ => rfl)
theorem i22 (q : Fin 131072) (j : Fin 128) : idx_main_v21 (idx_main_v22 (ix2 q j)) = ix1 j :=
  funext fun a => Fin.ext (by match a with | ⟨0, _⟩ => rfl)
theorem l25 (q : Fin 131072) (u : Fin 1) (j : Fin 128) : lidx_main_v25 (ix2 q u) j = ix2 q j :=
  funext fun a => Fin.ext (by match a with | ⟨0, _⟩ => rfl | ⟨1, _⟩ => rfl)
theorem r25 (q : Fin 131072) (u : Fin 1) (j : Fin 128) : ridx_main_v25 (ix2 q u) j = ix2 j (0 : Fin 1) :=
  funext fun a => Fin.ext (by
    match a with
    | ⟨0, _⟩ => rfl
    | ⟨1, _⟩ => show u.val = 0; omega)
theorem i27 (q : Fin 131072) (u : Fin 1) : idx_main_v26 (idx_main_v27 (ix2 q u)) = ix1 (0 : Fin 1) :=
  funext fun a => Fin.ext (by match a with | ⟨0, _⟩ => rfl)

/-- The first layer before its rectifier, at row q of the stack and hidden unit k. -/
theorem pre1 (q : Fin 131072) (k : Fin 256) :
    val_main_v18 (F := Ideal) x0 x1 x2 x3 x4 x5 (ix2 q k)
      = hidden1 x4 (fun k => x5 (ix1 k)) (fun d => val_main_v14 (F := Ideal) x0 x1 x2 x3 (ix2 q d)) k := by
  rw [val_main_v18_apply, val_main_v15_apply, val_main_v17_apply, val_main_v16_apply, i17, Ideal.addf_def]
  unfold hidden1
  refine congrArg (· + _) (Finset.sum_congr rfl fun d _ => ?_)
  rw [l15, r15]

/-- The rest of the network at row q of the stack. -/
theorem rest (q : Fin 131072) (u : Fin 1) :
    val_main_v28 (F := Ideal) x0 x1 x2 x3 x4 x5 x6 x7 x8 x9 (ix2 q u)
      = readout x6 (fun j => x7 (ix1 j)) (fun j => x8 (ix2 j (0 : Fin 1))) (x9 (ix1 (0 : Fin 1)))
          (fun k => val_main_v18 (F := Ideal) x0 x1 x2 x3 x4 x5 (ix2 q k)) := by
  rw [val_main_v28_apply, val_main_v25_apply, val_main_v27_apply, val_main_v26_apply, i27, Ideal.addf_def]
  unfold readout
  refine congrArg (· + _) (Finset.sum_congr rfl fun j _ => ?_)
  rw [l25, r25, val_main_v24_apply, val_main_v23_apply, val_main_v20_apply, val_main_v22_apply, val_main_v21_apply, i22,
    val_main_call1_v0_apply, val_main_call1_cst_apply, Ideal.maximumf_def, Ideal.addf_def, Ideal.ofBits_def,
    Ideal.ofBits_zero_f32]
  refine congrArg (fun s => max (s + _) 0 * _) (Finset.sum_congr rfl fun k _ => ?_)
  rw [l20, r20, val_main_v19_apply, val_main_call0_v0_apply, val_main_call0_cst_apply, Ideal.maximumf_def, Ideal.ofBits_def,
    Ideal.ofBits_zero_f32]

/-- A row of the upper half of the stack is a user row … -/
theorem cat_left (r : Fin 65536) (d : Fin 64) (q : Fin 131072) (hq : q.val = r.val) :
    val_main_v14 (F := Ideal) x0 x1 x2 x3 (ix2 q d) = val_main_v6 (F := Ideal) x0 x2 (ix2 r d) := by
  unfold val_main_v14
  exact concatenate_pair_apply_left (t := S131072x64) (s₁ := S65536x64) (s₂ := S65536x64) (0 : Fin 2) _ _
    concatenates_S65536x64_S65536x64_S131072x64_d0 (ix2 q d) rfl (ix2 r d)
    (fun b => by
      match b with
      | ⟨0, _⟩ => exact hq.symm
      | ⟨1, _⟩ => rfl)

/-- … and a row of the lower half is a movie row, 65536 rows up. -/
theorem cat_right (r : Fin 65536) (d : Fin 64) (q : Fin 131072) (hq : q.val = 65536 + r.val) :
    val_main_v14 (F := Ideal) x0 x1 x2 x3 (ix2 q d) = val_main_v13 (F := Ideal) x1 x3 (ix2 r d) := by
  unfold val_main_v14
  exact concatenate_pair_apply_right (t := S131072x64) (s₁ := S65536x64) (s₂ := S65536x64) (0 : Fin 2) _ _
    concatenates_S65536x64_S65536x64_S131072x64_d0 (ix2 q d) rfl rfl (ix2 r d)
    (fun b hb => by
      match b with
      | ⟨0, _⟩ => exact absurd rfl hb
      | ⟨1, _⟩ => rfl)
    (by show r.val + 65536 = q.val; omega)

/-- The reference's result is the vector of summed scores of the gathered rows. -/
theorem result_eq :
    val_main_v30 (F := Ideal) x0 x1 x2 x3 x4 x5 x6 x7 x8 x9
      = total (val_main_v6 (F := Ideal) x0 x2) (val_main_v13 (F := Ideal) x1 x3) x4 x5 x6 x7 x8 x9 := by
  funext i
  obtain ⟨r, rfl⟩ : ∃ r : Fin 65536, i = ix1 r := ⟨i 0, eq_ix1 i⟩
  have hr : r.val < 65536 := r.isLt
  have e0 : idx_main_v29 (idx_main_v30 (ix1 r) 0) = ix2 (⟨r.val, by omega⟩ : Fin 131072) (0 : Fin 1) :=
    funext fun a => Fin.ext (by
      match a with
      | ⟨0, _⟩ => show (0 * 65536 + r.val) / 1 = r.val; omega
      | ⟨1, _⟩ => rfl)
  have e1 : idx_main_v29 (idx_main_v30 (ix1 r) 1) = ix2 (⟨65536 + r.val, by omega⟩ : Fin 131072) (0 : Fin 1) :=
    funext fun a => Fin.ext (by
      match a with
      | ⟨0, _⟩ => show (1 * 65536 + r.val) / 1 = 65536 + r.val; omega
      | ⟨1, _⟩ => rfl)
  have h0 : (fun k => val_main_v18 (F := Ideal) x0 x1 x2 x3 x4 x5 (ix2 (⟨r.val, by omega⟩ : Fin 131072) k))
      = hidden1 x4 (fun k => x5 (ix1 k)) (fun d => val_main_v6 (F := Ideal) x0 x2 (ix2 r d)) :=
    funext fun k => (pre1 x0 x1 x2 x3 x4 x5 _ k).trans
      (congrArg (fun x => hidden1 x4 (fun k => x5 (ix1 k)) x k) (funext fun d => cat_left x0 x1 x2 x3 r d _ rfl))
  have h1 : (fun k => val_main_v18 (F := Ideal) x0 x1 x2 x3 x4 x5 (ix2 (⟨65536 + r.val, by omega⟩ : Fin 131072) k))
      = hidden1 x4 (fun k => x5 (ix1 k)) (fun d => val_main_v13 (F := Ideal) x1 x3 (ix2 r d)) :=
    funext fun k => (pre1 x0 x1 x2 x3 x4 x5 _ k).trans
      (congrArg (fun x => hidden1 x4 (fun k => x5 (ix1 k)) x k) (funext fun d => cat_right x0 x1 x2 x3 r d _ rfl))
  rw [val_main_v30_apply, Fin.sum_univ_two, val_main_cst_apply, Ideal.ofBits_def, Ideal.ofBits_zero_f32, zero_add,
    val_main_v29_apply, val_main_v29_apply, e0, e1, rest, rest, h0, h1]
  rfl

end Cert.ReferenceIdeal.Bridge

end
-- ==== Proof.lean ====
/-
  A two-tower recommender's scoring head, fused against unfused.

  Both programs look up one 64-number embedding row per user id and per movie id (ids below zero count from the end of
  their table), and score each row by the same small network: a 64-to-256 layer and a 256-to-128 layer, each followed
  by max(·, 0), then a 128-to-1 read-out with a bias. The result at batch entry i is the user row's score plus the
  movie row's score.

  The kernel runs the network on the two gathered arrays block by block, 4096 batch entries per grid step, narrowing
  matrix-product operands to a shorter float format on the way in, taking the read-out as a weighted sum along the
  lanes, and adding the two scores inside the step. The reference stacks the two gathered arrays into 131072 rows, runs
  three matrix products over the stack, and adds the two halves of the 131072 scores starting from zero.

  Over the extended reals a change of float format is the identity, a matrix product into a zero accumulator and a
  lane sum are plain finite sums, and a row's score depends on that row alone; so both results are
  score(user row i) + score(movie row i), the reference's with a leading 0 + that vanishes. No step needs the inputs to
  be finite: only reindexing of finite sums and 0 + x = x are used. The kernel's idealized program is the kernel's own
  text read over the extended reals (no operation was replaced), so the claim relating those two is trivially true.
-/
import proofs.«106467_j42812234007043_1_alg».proof.Defs
import proofs.«106467_j42812234007043_1_alg».proof.Proof.Gen.Kernel
import proofs.«106467_j42812234007043_1_alg».proof.Proof.Gen.Kernel.Skeleton
import proofs.«106467_j42812234007043_1_alg».proof.Proof.Gen.Kernel.Launch
import proofs.«106467_j42812234007043_1_alg».proof.Proof.Gen.Kernel.Points
import proofs.«106467_j42812234007043_1_alg».proof.Proof.Gen.Kernel.Frame
import proofs.«106467_j42812234007043_1_alg».proof.Proof.Gen.KernelIdeal
import proofs.«106467_j42812234007043_1_alg».proof.Proof.Gen.KernelIdeal.Skeleton
import proofs.«106467_j42812234007043_1_alg».proof.Proof.Gen.KernelIdeal.Launch
import proofs.«106467_j42812234007043_1_alg».proof.Proof.Gen.KernelIdeal.Points
import proofs.«106467_j42812234007043_1_alg».proof.Proof.Gen.KernelIdeal.Frame
import proofs.«106467_j42812234007043_1_alg».proof.Proof.Gen.ReferenceIdeal
import proofs.«106467_j42812234007043_1_alg».proof.Proof.Gen.Pre_finite_inputs
import proofs.«106467_j42812234007043_1_alg».proof.Proof.Gen.ReferenceIdeal.Run
import proofs.«106467_j42812234007043_1_alg».proof.Proof.Gen.ReferenceIdeal.Read
import proofs.«106467_j42812234007043_1_alg».proof.Proof.KernelHost
import proofs.«106467_j42812234007043_1_alg».proof.Proof.Reference
import Idealize.ShloMosaic.Adequacy
import Idealize.ShloMosaic.Init

noncomputable section

namespace Cert.Proof

open Idealize.ShloMosaic Idealize.SL.Sem

/-- The three programs run, fault nowhere, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments the kernel's result vector and the reference's are the same vector of
    summed scores of the gathered rows: the two programs gather with the same operations, so the gathered arrays are
    the same terms of the arguments. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [a0, a1, a2, a3, a4, a5, a6, a7, a8, a9, Cert.ReferenceIdeal.Read.val_main_v30_eq,
    Cert.ReferenceIdeal.Bridge.result_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
